-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S512x100 : Shape := ⟨2, ![512, 100]⟩
abbrev S512 : Shape := ⟨1, ![512]⟩
abbrev S100000x64 : Shape := ⟨2, ![100000, 64]⟩
abbrev S100000x100 : Shape := ⟨2, ![100000, 100]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S512x100 : S_.BroadcastsInDim S512x100 (![] : Fin 0 → Fin S512x100.rank)
  reducesTo_S512x100_S_d0_1 : S512x100.ReducesTo [0, 1] S_
  bcast_S_S100000x64 : S_.BroadcastsInDim S100000x64 (![] : Fin 0 → Fin S100000x64.rank)
  reducesTo_S100000x64_S_d0_1 : S100000x64.ReducesTo [0, 1] S_
  bcast_S_S100000x100 : S_.BroadcastsInDim S100000x100 (![] : Fin 0 → Fin S100000x100.rank)
  reducesTo_S100000x100_S_d0_1 : S100000x100.ReducesTo [0, 1] S_

variable [Facts]

def fn_part1 {F : FTy → Type} [FloatOps F] (main_v13 : IVec S_ 1) (main_v16 : IVec S100000x100 1) : IVec S_ 1 :=
  let main_c_5 : IVec S_ 1 := constantI S_ 1 1#1
  let main_v17 : IVec S_ 1 := (fun x v => Host.reduce IntOp.andi x v reducesTo_S100000x100_S_d0_1 h_S_) main_v16 main_c_5
  let main_v18 : IVec S_ 1 := andi main_v13 main_v17
  main_v18

def fn {F : FTy → Type} [FloatOps F] (main_arg0 : FVec F S512x64 .f32) (main_arg1 : FVec F S512x100 .f32) (main_arg2 : IVec S512 32) (main_arg3 : FVec F S100000x64 .f32) (main_arg4 : FVec F S100000x100 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S512x100 .f32 := Host.absf main_arg1
  let main_cst_0 : FVec F S_ .f32 := constant S_ .f32 0x7F800000#32
  let main_v5 : FVec F S512x100 .f32 := broadcastInDim S512x100 ![] bcast_S_S512x100 main_cst_0
  let main_v6 : IVec S512x100 1 := cmpf .olt main_v4 main_v5
  let main_c_1 : IVec S_ 1 := constantI S_ 1 1#1
  let main_v7 : IVec S_ 1 := (fun x v => Host.reduce IntOp.andi x v reducesTo_S512x100_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x100 .f32 := Host.absf main_arg4
  let main_cst_4 : FVec F S_ .f32 := constant S_ .f32 0x7F800000#32
  let main_v15 : FVec F S100000x100 .f32 := broadcastInDim S100000x100 ![] bcast_S_S100000x100 main_cst_4
  let main_v16 : IVec S100000x100 1 := cmpf .olt main_v14 main_v15
  fn_part1 (F := F) main_v13 main_v16
-- ==== Kernel.lean ====
abbrev S512x64 : Shape := ⟨2, ![512, 64]⟩
abbrev S512x100 : Shape := ⟨2, ![512, 100]⟩
abbrev S512 : Shape := ⟨1, ![512]⟩
abbrev S100000x64 : Shape := ⟨2, ![100000, 64]⟩
abbrev S100000x100 : Shape := ⟨2, ![100000, 100]⟩
abbrev S_ : Shape := ⟨0, ![]⟩
abbrev S512x1 : Shape := ⟨2, ![512, 1]⟩
abbrev S100352x64 : Shape := ⟨2, ![100352, 64]⟩
abbrev S100352x100 : Shape := ⟨2, ![100352, 100]⟩
abbrev S2x1x1 : Shape := ⟨3, ![2, 1, 1]⟩
abbrev S1024x64 : Shape := ⟨2, ![1024, 64]⟩
abbrev S1024x100 : Shape := ⟨2, ![1024, 100]⟩
abbrev S1x1x1 : Shape := ⟨3, ![1, 1, 1]⟩
abbrev S64x1024 : Shape := ⟨2, ![64, 1024]⟩
abbrev S512x1024 : Shape := ⟨2, ![512, 1024]⟩
abbrev S100x1024 : Shape := ⟨2, ![100, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 47
  | .vmem => 9
  | .smem => 0
  | _ => 0

abbrev bufTy : (tb : Table) → Fin (tcTables nBuf tb) → BufTy
  | .hbm, ⟨0, _⟩ => ⟨S512x64, .f32⟩
  | .hbm, ⟨1, _⟩ => ⟨S512x100, .f32⟩
  | .hbm, ⟨2, _⟩ => ⟨S512, .i32⟩
  | .hbm, ⟨3, _⟩ => ⟨S100000x64, .f32⟩
  | .hbm, ⟨4, _⟩ => ⟨S100000x100, .f32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S100000x64, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S100000x100, .f32⟩
  | .hbm, ⟨23, _⟩ => ⟨S_, .i32⟩
  | .hbm, ⟨24, _⟩ => ⟨S_, .f32⟩
  | .hbm, ⟨25, _⟩ => ⟨S100352x64, .f32⟩
  | .hbm, ⟨26, _⟩ => ⟨S_, .i32⟩
  | .hbm, ⟨27, _⟩ => ⟨S_, .f32⟩
  | .hbm, ⟨28, _⟩ => ⟨S100352x100, .f32⟩
  | .hbm, ⟨29, _⟩ => ⟨S2x1x1, .f32⟩
  | .hbm, ⟨30, _⟩ => ⟨S1x1x1, .f32⟩
  | .hbm, ⟨31, _⟩ => ⟨S_, .f32⟩
  | .hbm, ⟨32, _⟩ => ⟨S1x1x1, .f32⟩
  | .hbm, ⟨33, _⟩ => ⟨S_, .f32⟩
  | .hbm, ⟨34, _⟩ => ⟨S_, .f32⟩
  | .hbm, ⟨35, _⟩ => ⟨S512x64, .f32⟩
  | .hbm, ⟨36, _⟩ => ⟨S_, .f32⟩
  | .hbm, ⟨37, _⟩ => ⟨S512x64, .f32⟩
  | .hbm, ⟨38, _⟩ => ⟨S512x64, .f32⟩
  | .hbm, ⟨39, _⟩ => ⟨S512x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x64, .f32⟩
  | .local _ .vmem, ⟨1, _⟩ => ⟨S512x100, .f32⟩
  | .local _ .vmem, ⟨2, _⟩ => ⟨S1024x64, .f32⟩
  | .local _ .vmem, ⟨3, _⟩ => ⟨S1024x64, .f32⟩
  | .local _ .vmem, ⟨4, _⟩ => ⟨S1024x100, .f32⟩
  | .local _ .vmem, ⟨5, _⟩ => ⟨S1024x100, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call0_v0 : Ref sig .tc := ⟨.hbm, 24, rfl⟩
abbrev main_v14 : Ref sig .tc := ⟨.hbm, 25, rfl⟩
abbrev main_c_4 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v70 : BitVec 1 := Scalar.cmpi .eq arg1 c48_i32
  let v71 : BitVec 32 := Scalar.extui v70
  let c0_i32_27 : BitVec 32 := 0#32
  let v72 : BitVec 1 := Scalar.cmpi .ne v71 c0_i32_27
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S512 : S_.BroadcastsInDim S512 (![] : Fin 0 → Fin S512.rank)
  bcast_S512_S512x1_0 : S512.BroadcastsInDim S512x1 (![0] : Fin 1 → Fin S512x1.rank)
  pads_S100000x64_S100352x64_03520_000 : S100000x64.Pads (![0, 0] : Fin 2 → Nat) ![352, 0] ![0, 0] S100352x64
  h_S_ : 0 < S_.numel
  pads_S100000x100_S100352x100_03520_000 : S100000x100.Pads (![0, 0] : Fin 2 → Nat) ![352, 0] ![0, 0] S100352x100
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x64_S512x64_0_0 : ∀ a, (![0, 0] : Fin 2 → Nat) a + S512x64.size a ≤ S512x64.size a
  h_S512x64 : 0 < S512x64.numel
  inb_S512x100_S512x100_0_0 : ∀ a, (![0, 0] : Fin 2 → Nat) a + S512x100.size a ≤ S512x100.size a
  h_S512x100 : 0 < S512x100.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  bitsLt_bf16_f32 : FTy.bits .bf16 < FTy.bits .f32
  transposes_S1024x64_p1_0_S64x1024 : S1024x64.Transposes [1, 0] S64x1024
  transposes_S1024x100_p1_0_S100x1024 : S1024x100.Transposes [1, 0] S100x1024
  reduces_S512x64_S512 : S512x64.Reduces [1] S512
  shapeCasts_S512_S512x1 : S512.ShapeCasts S512x1
  reduces_S1024x64_S1024 : S1024x64.Reduces [1] S1024
  shapeCasts_S1024_S1x1024 : S1024.ShapeCasts S1x1024
  broadcasts_S512x1_S512x1024 : S512x1.Broadcasts S512x1024
  broadcasts_S1x1024_S512x1024 : S1x1024.Broadcasts S512x1024
  natLt_1_32 : 1 < 32
  iota_S1x1024_d1_w32 : S1x1024.Iotas .tc 32 [1]
  reduces_S512x1024_S512 : S512x1024.Reduces [1] S512
  reduces_S512x1_S1 : S512x1.Reduces [0] S1
  shapeCasts_S1_S1x1 : S1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  bcast_S_S512x64 : S_.BroadcastsInDim S512x64 (![] : Fin 0 → Fin S512x64.rank)
  reducesTo_S512x64_S_d0_1 : S512x64.ReducesTo [0, 1] S_
  scatter_S100000x64_S512x1_S512x64_1_0_0_1_wf : ScatterDims.WF S100000x64 S512x1 S512x64 [1] [0] [0] 1
  scatter_S100000x100_S512x1_S512x100_1_0_0_1_wf : ScatterDims.WF S100000x100 S512x1 S512x100 [1] [0] [0] 1
  dot_S512x64_S64x1024_S512x1024_1_0_0_1_n_n_wf : DotDims.WF S512x64 S64x1024 S512x1024 [1] [0] [0] [1] [] []
  dot_S512x100_S100x1024_S512x1024_1_0_0_1_n_n_wf : DotDims.WF S512x100 S100x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S512x64.size a
  hwx0_0 : ∀ i : grid0.Coords, EltTy.bits .f32 = 32 ∨ (Rect.block (s := S512x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x100.size a ≤ S512x100.size a
  hwx0_1 : ∀ i : grid0.Coords, EltTy.bits .f32 = 32 ∨ (Rect.block (s := S512x100) S512x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S100352x64.size a
  hwx0_2 : ∀ i : grid0.Coords, EltTy.bits .f32 = 32 ∨ (Rect.block (s := S100352x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S100352x100.size a
  hwx0_3 : ∀ i : grid0.Coords, EltTy.bits .f32 = 32 ∨ (Rect.block (s := S100352x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def scatter_S100000x64_S512x1_S512x64_1_0_0_1 : ScatterDims S100000x64 S512x1 S512x64 where
  updateWindowDims := [1]
  insertedWindowDims := [0]
  scatterDimsToOperandDims := [0]
  indexVectorDim := 1
  wf := scatter_S100000x64_S512x1_S512x64_1_0_0_1_wf
def scatter_S100000x100_S512x1_S512x100_1_0_0_1 : ScatterDims S100000x100 S512x1 S512x100 where
  updateWindowDims := [1]
  insertedWindowDims := [0]
  scatterDimsToOperandDims := [0]
  indexVectorDim := 1
  wf := scatter_S100000x100_S512x1_S512x100_1_0_0_1_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x100_S100x1024_S512x1024_1_0_0_1_n_n : DotDims S512x100 S100x1024 S512x1024 where
  lhsContracting := [1]
  rhsContracting := [0]
  lhsNonContracting := [0]
  rhsNonContracting := [1]
  lhsBatch := []
  rhsBatch := []
  wf := dot_S512x100_S100x1024_S512x1024_1_0_0_1_n_n_wf

abbrev win0_0 : Pipeline.Window sig grid0 :=
  Pipeline.Window.ofSpec (Memref.whole main_arg0) S512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x64 : Shape := ⟨2, ![512, 64]⟩
abbrev S512x100 : Shape := ⟨2, ![512, 100]⟩
abbrev S512 : Shape := ⟨1, ![512]⟩
abbrev S100000x64 : Shape := ⟨2, ![100000, 64]⟩
abbrev S100000x100 : Shape := ⟨2, ![100000, 100]⟩
abbrev S_ : Shape := ⟨0, ![]⟩
abbrev S512x1 : Shape := ⟨2, ![512, 1]⟩
abbrev S100000 : Shape := ⟨1, ![100000]⟩
abbrev S1x100000 : Shape := ⟨2, ![1, 100000]⟩
abbrev S64x100000 : Shape := ⟨2, ![64, 100000]⟩
abbrev S512x100000 : Shape := ⟨2, ![512, 100000]⟩
abbrev S100x100000 : Shape := ⟨2, ![100, 100000]⟩

abbrev nBuf : Space → Nat
  | .hbm => 83
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x100, .f32⟩
  | .hbm, ⟨2, _⟩ => ⟨S512, .i32⟩
  | .hbm, ⟨3, _⟩ => ⟨S100000x64, .f32⟩
  | .hbm, ⟨4, _⟩ => ⟨S100000x100, .f32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S100000x64, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S100000x100, .f32⟩
  | .hbm, ⟨23, _⟩ => ⟨S512x64, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S100000x64, .f32⟩
  | .hbm, ⟨28, _⟩ => ⟨S_, .f32⟩
  | .hbm, ⟨29, _⟩ => ⟨S100000, .f32⟩
  | .hbm, ⟨30, _⟩ => ⟨S1x100000, .f32⟩
  | .hbm, ⟨31, _⟩ => ⟨S64x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S512x100000, .f32⟩
  | .hbm, ⟨37, _⟩ => ⟨S512x100000, .f32⟩
  | .hbm, ⟨38, _⟩ => ⟨S512x100000, .f32⟩
  | .hbm, ⟨39, _⟩ => ⟨S512x100000, .f32⟩
  | .hbm, ⟨40, _⟩ => ⟨S_, .f32⟩
  | .hbm, ⟨41, _⟩ => ⟨S512x100000, .f32⟩
  | .hbm, ⟨42, _⟩ => ⟨S512x100000, .f32⟩
  | .hbm, ⟨43, _⟩ => ⟨S100x100000, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .i1⟩
  | .hbm, ⟨48, _⟩ => ⟨S512x100000, .f32⟩
  | .hbm, ⟨49, _⟩ => ⟨S_, .f32⟩
  | .hbm, ⟨50, _⟩ => ⟨S512x100000, .f32⟩
  | .hbm, ⟨51, _⟩ => ⟨S512x100000, .f32⟩
  | .hbm, ⟨52, _⟩ => ⟨S_, .f32⟩
  | .hbm, ⟨53, _⟩ => ⟨S512x100000, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512x100000, .f32⟩
  | .hbm, ⟨58, _⟩ => ⟨S512x100000, .f32⟩
  | .hbm, ⟨59, _⟩ => ⟨S_, .f32⟩
  | .hbm, ⟨60, _⟩ => ⟨S512x100000, .f32⟩
  | .hbm, ⟨61, _⟩ => ⟨S512x100000, .f32⟩
  | .hbm, ⟨62, _⟩ => ⟨S_, .f32⟩
  | .hbm, ⟨63, _⟩ => ⟨S512x100000, .f32⟩
  | .hbm, ⟨64, _⟩ => ⟨S512x100000, .f32⟩
  | .hbm, ⟨65, _⟩ => ⟨S512x100000, .f32⟩
  | .hbm, ⟨66, _⟩ => ⟨S512x100000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S512x64, .f32⟩
  | .hbm, ⟨72, _⟩ => ⟨S_, .f32⟩
  | .hbm, ⟨73, _⟩ => ⟨S512x64, .f32⟩
  | .hbm, ⟨74, _⟩ => ⟨S512x64, .f32⟩
  | .hbm, ⟨75, _⟩ => ⟨S512x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  reducesTo_S512x64_S512_d1 : S512x64.ReducesTo [1] S512
  h_S_ : 0 < S_.numel
  reducesTo_S100000x64_S100000_d1 : S100000x64.ReducesTo [1] S100000
  bcast_S100000_S1x100000_1 : S100000.BroadcastsInDim S1x100000 (![1] : Fin 1 → Fin S1x100000.rank)
  transposes_S100000x64_S64x100000_1_0 : S100000x64.Transposes [1, 0] S64x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  transposes_S100000x100_S100x100000_1_0 : S100000x100.Transposes [1, 0] S100x100000
  reducesTo_S512x100000_S_d0_1 : S512x100000.ReducesTo [0, 1] S_
  bcast_S_S512x64 : S_.BroadcastsInDim S512x64 (![] : Fin 0 → Fin S512x64.rank)
  reducesTo_S512x64_S_d0_1 : S512x64.ReducesTo [0, 1] S_
  scatter_S100000x64_S512x1_S512x64_1_0_0_1_wf : ScatterDims.WF S100000x64 S512x1 S512x64 [1] [0] [0] 1
  scatter_S100000x100_S512x1_S512x100_1_0_0_1_wf : ScatterDims.WF S100000x100 S512x1 S512x100 [1] [0] [0] 1
  dot_S512x64_S64x100000_S512x100000_1_0_0_1_n_n_wf : DotDims.WF S512x64 S64x100000 S512x100000 [1] [0] [0] [1] [] []
  dot_S512x100_S100x100000_S512x100000_1_0_0_1_n_n_wf : DotDims.WF S512x100 S100x100000 S512x100000 [1] [0] [0] [1] [] []

variable [Facts₀]

def scatter_S100000x64_S512x1_S512x64_1_0_0_1 : ScatterDims S100000x64 S512x1 S512x64 where
  updateWindowDims := [1]
  insertedWindowDims := [0]
  scatterDimsToOperandDims := [0]
  indexVectorDim := 1
  wf := scatter_S100000x64_S512x1_S512x64_1_0_0_1_wf
def scatter_S100000x100_S512x1_S512x100_1_0_0_1 : ScatterDims S100000x100 S512x1 S512x100 where
  updateWindowDims := [1]
  insertedWindowDims := [0]
  scatterDimsToOperandDims := [0]
  indexVectorDim := 1
  wf := scatter_S100000x100_S512x1_S512x100_1_0_0_1_wf
def dot_S512x64_S64x100000_S512x100000_1_0_0_1_n_n : DotDims S512x64 S64x100000 S512x100000 where
  lhsContracting := [1]
  rhsContracting := [0]
  lhsNonContracting := [0]
  rhsNonContracting := [1]
  lhsBatch := []
  rhsBatch := []
  wf := dot_S512x64_S64x100000_S512x100000_1_0_0_1_n_n_wf
def dot_S512x100_S100x100000_S512x100000_1_0_0_1_n_n : DotDims S512x100 S100x100000 S512x100000 where
  lhsContracting := [1]
  rhsContracting := [0]
  lhsNonContracting := [0]
  rhsNonContracting := [1]
  lhsBatch := []
  rhsBatch := []
  wf := dot_S512x100_S100x100000_S512x100000_1_0_0_1_n_n_wf

class Facts : Prop extends Facts₀ where

variable [Facts]
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.PairLoss.lean ====
/-
  The loss of one (query row, database row) pair, and the regrouping of its total.

  For a query row with code uu (64 reals) and label vector yy (100 reals) against a database row with code Ur
  and labels Yr, the squared distance is taken through the expansion |u|^2 - 2 u.U + |U|^2 clipped below at zero,
  the pair is a MISMATCH when the label vectors share no class (their inner product is zero), and the loss is half
  the distance for a match, half the hinge max (128 - distance) 0 for a mismatch.  Everything is read on the
  extended reals, where a sum may be regrouped freely; the only law used beyond that is that a division by a
  positive real distributes over a sum, which holds at the infinities too.

  The total over 512 query rows and 100000 database rows is regrouped as the kernel takes it: the database rows
  padded with 352 masked rows to 100352 = 98 * 1024, cut into 98 tiles of 1024 rows, the tiles into two runs of 49.
-/
import Idealize.ShloMosaic.PureOps.Ideal.Laws
import Idealize.ShloMosaic.Lib.ValueIdx
import proofs.«162910_j55654186221915_1_alg».proof.Proof.LibBlockSum

noncomputable section

open scoped BigOperators

namespace Cert.PairLoss

open Idealize.ShloMosaic

/-- A one-bit word read as a real: 0 or 1. -/
def bitVal (b : BitVec 1) : EReal := ((b.toNat : ℝ) : EReal)

theorem bitVal_one : bitVal 1#1 = 1 := by simp [bitVal]
theorem bitVal_zero : bitVal 0#1 = 0 := by simp [bitVal]

/-- Widening the bit to 32 bits and reading it as a signed integer gives the same real. -/
theorem sitofp_setWidth (b : BitVec 1) : (((b.setWidth 32).toInt : ℝ) : EReal) = bitVal b := by
  by_cases h : b = 1#1
  · subst h; simp [bitVal]
  · have h0 := ValueIdx.eq_zero_of_ne_one h
    subst h0; simp [bitVal]

/-- 1 when the label vectors share no class (their inner product s is zero), else 0. -/
def mismatch (s : EReal) : EReal := bitVal (Ideal.cmp .oeq s 0)

/-- The squared distance of a pair, clipped below at zero. -/
def dist (uu Ur : Fin 64 → EReal) : EReal :=
  max ((∑ k, uu k * uu k) - Ideal.ofBits .f32 0x40000000#32 * (∑ k, uu k * Ur k) + ∑ k, Ur k * Ur k) 0

/-- The loss of one pair. -/
def pairLoss (uu Ur : Fin 64 → EReal) (yy Yr : Fin 100 → EReal) : EReal :=
  (Ideal.ofBits .f32 0x3F800000#32 - mismatch (∑ k, yy k * Yr k)) * Ideal.ofBits .f32 0x3F000000#32 * dist uu Ur
    + mismatch (∑ k, yy k * Yr k) * Ideal.ofBits .f32 0x3F000000#32
      * max (Ideal.ofBits .f32 0x43000000#32 - dist uu Ur) 0

/-- The number of pairs, 512 * 100000, as the f32 word both programs divide by. -/
theorem count_eq : Ideal.ofBits .f32 0x4C435000#32 = ((51200000 : ℝ) : EReal) := by
  simp [Ideal.ofBits, Ideal.ieee, -EReal.coe_mul]; norm_num

/-- Dividing by the number of pairs distributes over a sum, on every extended real. -/
theorem div_count_add (a b : EReal) :
    Ideal.div a (Ideal.ofBits .f32 0x4C435000#32) + Ideal.div b (Ideal.ofBits .f32 0x4C435000#32)
      = Ideal.div (a + b) (Ideal.ofBits .f32 0x4C435000#32) := by
  rw [count_eq, Ideal.div_coe (by norm_num), Ideal.div_coe (by norm_num), Ideal.div_coe (by norm_num)]
  exact (EReal.right_distrib_of_nonneg_of_ne_top (by positivity) (EReal.coe_ne_top _) a b).symm

/-- THE REGROUPING.  P b n is the masked term of query row b and padded database row n; it is the pair's loss
    L b n on the 100000 real rows and zero on the 352 padding rows.  Summed tile by tile (98 tiles of 1024 rows, each
    tile over all query rows) it is the total of L. -/
theorem tiles_total (P : Fin 512 → ℕ → EReal) (L : Fin 512 → Fin 100000 → EReal)
    (hreal : ∀ b (n : Fin 100000), P b n.val = L b n)
    (hpad : ∀ b n, 100000 ≤ n → P b n = 0) :
    ∑ t ∈ Finset.range 98, ∑ b : Fin 512, ∑ j : Fin 1024, P b (1024 * t + j.val)
      = ∑ b : Fin 512, ∑ n : Fin 100000, L b n := by
  rw [Finset.sum_comm]
  refine Finset.sum_congr rfl fun b _ => ?_
  have h1 : ∑ t ∈ Finset.range 98, ∑ j : Fin 1024, P b (1024 * t + j.val)
      = ∑ i : Fin 100352, P b i.val := by
    rw [← Cert.LibBlockSum.sum_range_blocks 98 1024 100352 (by norm_num) (by norm_num) (fun i => P b i.val)]
    refine Finset.sum_congr rfl fun t ht => Finset.sum_congr rfl fun j _ => ?_
    have ht' : t < 98 := Finset.mem_range.mp ht
    have hj := j.isLt
    show P b _ = P b ((1024 * t + j.val) % 100352)
    rw [Nat.mod_eq_of_lt (by omega)]
  rw [h1, show (100352 : ℕ) = 100000 + 352 from rfl, Fin.sum_univ_add]
  have h2 : ∑ i : Fin 352, P b (Fin.natAdd 100000 i).val = 0 :=
    Finset.sum_eq_zero fun i _ => hpad b _ (by simp [Fin.natAdd])
  rw [h2, add_zero]
  exact Finset.sum_congr rfl fun n _ => hreal b n

/-- The 98 tiles as two runs of 49. -/
theorem two_runs (M : ℕ → EReal) :
    (∑ s ∈ Finset.range 49, M (49 * 0 + s)) + (∑ s ∈ Finset.range 49, M (49 * 1 + s)) = ∑ t ∈ Finset.range 98, M t := by
  rw [show (98 : ℕ) = 49 + 49 from rfl, Finset.sum_range_add]
  simp

end Cert.PairLoss

end
-- ==== Proof.RefSide.lean ====
/-
  The reference's result as one closed expression.

  The reference scatters the 512 query rows into the database (codes and labels alike), forms for every (query row,
  database row) pair its loss, sums the 512 * 100000 losses, divides by their number and adds a regularizer that
  depends on the query codes only.  Read index by index on the extended reals, the element of its loss matrix at
  (b, n) is the pair loss of query row b against row n of the scattered database, so the result is
  (sum over b and n of the pair losses) / 51200000 + regularizer.
-/
import proofs.«162910_j55654186221915_1_alg».proof.Proof.Gen.ReferenceIdeal.Read
import proofs.«162910_j55654186221915_1_alg».proof.Proof.PairLoss

noncomputable section

open scoped BigOperators

namespace Cert.ReferenceIdeal.RefValue

open Cert.ReferenceIdeal Cert.ReferenceIdeal.Read Idealize.ShloMosaic Idealize.ShloMosaic.ValueIdx Cert.PairLoss

variable (x0 : (⟨S512x64, .f32⟩ : BufTy).Contents (Elt Ideal)) (x1 : (⟨S512x100, .f32⟩ : BufTy).Contents (Elt Ideal))
  (x2 : (⟨S512, .i32⟩ : BufTy).Contents (Elt Ideal)) (x3 : (⟨S100000x64, .f32⟩ : BufTy).Contents (Elt Ideal))
  (x4 : (⟨S100000x100, .f32⟩ : BufTy).Contents (Elt Ideal))

/-- The whole result: the mean pair loss over the scattered database plus the regularizer of the query codes. -/
def resultOf : (⟨S_, .f32⟩ : BufTy).Contents (Elt Ideal) := fun i =>
  Ideal.div (∑ b : Fin 512, ∑ n : Fin 100000,
      pairLoss (fun k => x0 (ix2 b k)) (fun k => val_main_v6 x0 x2 x3 (ix2 n k)) (fun k => x1 (ix2 b k))
        (fun k => val_main_v13 x1 x2 x4 (ix2 n k))) (Ideal.ofBits .f32 0x4C435000#32)
    + val_main_v56 (F := Ideal) x0 i

/-- The loss matrix at (b, n) is the pair loss of query row b and scattered database row n: every operation of the
    reference between the scatters and the total is elementwise, a row sum, or a matrix product contracted over the
    code (label) axis. -/
theorem loss_apply (b : Fin 512) (n : Fin 100000) :
    val_main_v47 (F := Ideal) x0 x1 x2 x3 x4 (ix2 b n)
      = pairLoss (fun k => x0 (ix2 b k)) (fun k => val_main_v6 x0 x2 x3 (ix2 n k)) (fun k => x1 (ix2 b k))
          (fun k => val_main_v13 x1 x2 x4 (ix2 n k)) := by
  have e1 : ∀ k : Fin 64, idx_main_v15 (idx_main_v16 (idx_main_v24 (ix2 b n))) k = ix2 b k := fun k =>
    funext fun a => Fin.ext (by match a with | ⟨0, _⟩ => rfl | ⟨1, _⟩ => rfl)
  have e2 : ∀ k : Fin 64, lidx_main_v21 (ix2 b n) k = ix2 b k := fun k =>
    funext fun a => Fin.ext (by match a with | ⟨0, _⟩ => rfl | ⟨1, _⟩ => rfl)
  have e3 : ∀ k : Fin 64, idx_main_v20 (ridx_main_v21 (ix2 b n) k) = ix2 n k := fun k =>
    funext fun a => Fin.ext (by match a with | ⟨0, _⟩ => rfl | ⟨1, _⟩ => rfl)
  have e4 : ∀ k : Fin 64, idx_main_v18 (idx_main_v19 (idx_main_v26 (ix2 b n))) k = ix2 n k := fun k =>
    funext fun a => Fin.ext (by match a with | ⟨0, _⟩ => rfl | ⟨1, _⟩ => rfl)
  have e5 : ∀ k : Fin 100, lidx_main_v31 (ix2 b n) k = ix2 b k := fun k =>
    funext fun a => Fin.ext (by match a with | ⟨0, _⟩ => rfl | ⟨1, _⟩ => rfl)
  have e6 : ∀ k : Fin 100, idx_main_v30 (ridx_main_v31 (ix2 b n) k) = ix2 n k := fun k =>
    funext fun a => Fin.ext (by match a with | ⟨0, _⟩ => rfl | ⟨1, _⟩ => rfl)
  simp only [val_main_v47_apply, val_main_v39_apply, val_main_v46_apply, val_main_v38_apply, val_main_v41_apply,
    val_main_v45_apply, val_main_v43_apply, val_main_v36_apply, val_main_v34_apply, val_main_v33_apply,
    val_main_v29_apply, val_main_v27_apply, val_main_v25_apply, val_main_v23_apply, val_main_v35_apply,
    val_main_v37_apply, val_main_v40_apply, val_main_v42_apply, val_main_v44_apply, val_main_v28_apply,
    val_main_v32_apply, val_main_v22_apply, val_main_v24_apply, val_main_v26_apply, val_main_v16_apply,
    val_main_v19_apply, val_main_v15_apply, val_main_v18_apply, val_main_v21_apply, val_main_v31_apply,
    val_main_v20_apply, val_main_v30_apply, val_main_v14_apply, val_main_v17_apply,
    val_main_cst_apply, val_main_cst_3_apply, val_main_cst_4_apply, val_main_cst_5_apply, val_main_cst_6_apply,
    val_main_cst_7_apply, val_main_cst_8_apply, val_main_cst_9_apply, val_main_cst_10_apply, val_main_cst_11_apply,
    e1, e2, e3, e4, e5, e6,
    Ideal.addf_def, Ideal.mulf_def, Ideal.subf_def, Ideal.maximumf_def, Ideal.ofBits_def, Ideal.ofBits_zero_f32, zero_add]
  rfl

/-- The reference's result is the closed expression. -/
theorem result_eq : val_main_v57 (F := Ideal) x0 x1 x2 x3 x4 = resultOf x0 x1 x2 x3 x4 := by
  funext i
  rw [val_main_v57_apply, val_main_v49_apply, val_main_v48_apply, val_main_cst_12_apply, val_main_cst_13_apply, sum_idx2]
  simp only [loss_apply, Ideal.addf_def, Ideal.hostDivf_def, Ideal.ofBits_def, Ideal.ofBits_zero_f32, zero_add]
  rfl

end Cert.ReferenceIdeal.RefValue

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.TileLoss.lean ====
/-
  What one grid point of the kernel adds to its running total.

  A grid point reads the whole query code matrix x0 [512, 64] and label matrix x1 [512, 100], and one tile of 1024
  rows of the padded database codes x2 [1024, 64] and labels x3 [1024, 100].  Read on the extended reals (a change of
  float format is the identity, a matrix product into a zero accumulator is the plain sum of products, a lane
  reduction is the plain sum), its body forms for query row b and tile row j the pair loss of the two rows, masks it by
  whether the tile row's global position (49 * c + i) * 1024 + j lies below 100000, sums the masked losses over the
  tile row and then over the query row, and adds the total to the accumulator it found.
-/
import proofs.«162910_j55654186221915_1_alg».proof.Proof.Gen.KernelIdeal.Skeleton
import proofs.«162910_j55654186221915_1_alg».proof.Proof.PairLoss
import proofs.«162910_j55654186221915_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.PairLoss

theorem queryNorm_apply (x : Vec Ideal S512x64 .f32) (b : Fin 512) (j : Fin 1024) :
    broadcastTo S512x1024 (shapeCast S512x1 (multiReduction (F := Ideal) .add [1] S512 (mulf x x) 0x00000000#32 reduces_S512x64_S512 (.inl rfl) rfl) shapeCasts_S512_S512x1) broadcasts_S512x1_S512x1024 (ix2 b j)
      = ∑ k : Fin 64, x (ix2 b k) * x (ix2 b k) :=
  (Cert.LibKeepdims.broadcastTo_a1_ab_apply _ _ b j).trans
    ((Cert.LibKeepdims.shapeCast_a_a1_apply _ _ b 0).trans
      ((Ideal.multiReduction_add_single (mulf x x) 0x00000000#32 reduces_S512x64_S512 (.inl rfl) rfl (ix1 b)).trans
        (Finset.sum_congr rfl fun k _ => by
          have e : reduces_S512x64_S512.lift (ix1 b) k = ix2 b k :=
            funext fun a => Fin.ext (by match a with | ⟨0, _⟩ => rfl | ⟨1, _⟩ => rfl)
          exact congrArg (fun i => x i * x i) e)))

theorem baseNorm_apply (x : Vec Ideal S1024x64 .f32) (b : Fin 512) (j : Fin 1024) :
    broadcastTo S512x1024 (shapeCast S1x1024 (multiReduction (F := Ideal) .add [1] S1024 (mulf x x) 0x00000000#32 reduces_S1024x64_S1024 (.inl rfl) rfl) shapeCasts_S1024_S1x1024) broadcasts_S1x1024_S512x1024 (ix2 b j)
      = ∑ k : Fin 64, x (ix2 j k) * x (ix2 j k) :=
  (broadcastTo_1b_ab_apply _ _ b j).trans
    ((shapeCast_a_1a_apply _ _ 0 j).trans
      ((Ideal.multiReduction_add_single (mulf x x) 0x00000000#32 reduces_S1024x64_S1024 (.inl rfl) rfl (ix1 j)).trans
        (Finset.sum_congr rfl fun k _ => by
          have e : reduces_S1024x64_S1024.lift (ix1 j) k = ix2 j k :=
            funext fun a => Fin.ext (by match a with | ⟨0, _⟩ => rfl | ⟨1, _⟩ => rfl)
          exact congrArg (fun i => x i * x i) e)))

theorem lhsC0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem rhsC1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

theorem codeDot_apply (x0 : Vec Ideal S512x64 .f32) (x2 : Vec Ideal S1024x64 .f32) (b : Fin 512) (j : Fin 1024) :
    matmul (F := Ideal) dot_S512x64_S64x1024_S512x1024_1_0_0_1_n_n none (truncf .bf16 x0 bitsLt_bf16_f32)
      (transpose S64x1024 [1, 0] (truncf .bf16 x2 bitsLt_bf16_f32) transposes_S1024x64_p1_0_S64x1024)
      (constant S512x1024 .f32 0x00000000#32) (ix2 b j)
      = ∑ k : Fin 64, x0 (ix2 b k) * x2 (ix2 j k) := by
  refine (Ideal.matmul_constant_zero_apply dot_S512x64_S64x1024_S512x1024_1_0_0_1_n_n none _ _ (ix2 b j)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 b j) ((contrEquiv1 dot_S512x64_S64x1024_S512x1024_1_0_0_1_n_n 64 rfl rfl).symm k) = ix2 b k := funext fun a => Fin.ext (by
    match a with
    | ⟨0, _⟩ => exact lhsC0 _ _
    | ⟨1, _⟩ => exact (dot_S512x64_S64x1024_S512x1024_1_0_0_1_n_n.lhsIdx_val_of_single rfl _ _).trans hk)
  have er : dot_S512x64_S64x1024_S512x1024_1_0_0_1_n_n.rhsIdx (ix2 b j) ((contrEquiv1 dot_S512x64_S64x1024_S512x1024_1_0_0_1_n_n 64 rfl rfl).symm k) = ix2 k j := funext fun a => Fin.ext (by
    match a with
    | ⟨0, _⟩ => exact (dot_S512x64_S64x1024_S512x1024_1_0_0_1_n_n.rhsIdx_val_of_single rfl _ _).trans hk
    | ⟨1, _⟩ => exact rhsC1 _ _)
  rw [el, er]
  exact congrArg (x0 (ix2 b k) * ·) (transpose_ix2_apply _ _ k j)

theorem lhsL0 (i : S512x1024.Idx) (q : dot_S512x100_S100x1024_S512x1024_1_0_0_1_n_n.contr.Idx) :
    (dot_S512x100_S100x1024_S512x1024_1_0_0_1_n_n.lhsIdx i q 0).val = (i 0).val := by
  unfold DotDims.lhsIdx
  rw [dif_neg (show ¬(0 : Fin S512x100.rank) ∈ dot_S512x100_S100x1024_S512x1024_1_0_0_1_n_n.lhsBatch by decide), dif_pos (show (0 : Fin S512x100.rank) ∈ dot_S512x100_S100x1024_S512x1024_1_0_0_1_n_n.lhsNonContracting by decide)]
  rfl
theorem rhsL1 (i : S512x1024.Idx) (q : dot_S512x100_S100x1024_S512x1024_1_0_0_1_n_n.contr.Idx) :
    (dot_S512x100_S100x1024_S512x1024_1_0_0_1_n_n.rhsIdx i q 1).val = (i 1).val := by
  unfold DotDims.rhsIdx
  rw [dif_neg (show ¬(1 : Fin S100x1024.rank) ∈ dot_S512x100_S100x1024_S512x1024_1_0_0_1_n_n.rhsBatch by decide), dif_pos (show (1 : Fin S100x1024.rank) ∈ dot_S512x100_S100x1024_S512x1024_1_0_0_1_n_n.rhsNonContracting by decide)]
  rfl

theorem labelDot_apply (x1 : Vec Ideal S512x100 .f32) (x3 : Vec Ideal S1024x100 .f32) (b : Fin 512) (j : Fin 1024) :
    matmul (F := Ideal) dot_S512x100_S100x1024_S512x1024_1_0_0_1_n_n none (truncf .bf16 x1 bitsLt_bf16_f32)
      (transpose S100x1024 [1, 0] (truncf .bf16 x3 bitsLt_bf16_f32) transposes_S1024x100_p1_0_S100x1024)
      (constant S512x1024 .f32 0x00000000#32) (ix2 b j)
      = ∑ k : Fin 100, x1 (ix2 b k) * x3 (ix2 j k) := by
  refine (Ideal.matmul_constant_zero_apply dot_S512x100_S100x1024_S512x1024_1_0_0_1_n_n none _ _ (ix2 b j)).trans ?_
  rw [← Equiv.sum_comp (contrEquiv1 dot_S512x100_S100x1024_S512x1024_1_0_0_1_n_n 100 rfl rfl).symm]
  refine Finset.sum_congr rfl fun k _ => ?_
  have hk := contrEquiv1_symm_val dot_S512x100_S100x1024_S512x1024_1_0_0_1_n_n 100 rfl rfl k
  have el : dot_S512x100_S100x1024_S512x1024_1_0_0_1_n_n.lhsIdx (ix2 b j) ((contrEquiv1 dot_S512x100_S100x1024_S512x1024_1_0_0_1_n_n 100 rfl rfl).symm k) = ix2 b k := funext fun a => Fin.ext (by
    match a with
    | ⟨0, _⟩ => exact lhsL0 _ _
    | ⟨1, _⟩ => exact (dot_S512x100_S100x1024_S512x1024_1_0_0_1_n_n.lhsIdx_val_of_single rfl _ _).trans hk)
  have er : dot_S512x100_S100x1024_S512x1024_1_0_0_1_n_n.rhsIdx (ix2 b j) ((contrEquiv1 dot_S512x100_S100x1024_S512x1024_1_0_0_1_n_n 100 rfl rfl).symm k) = ix2 k j := funext fun a => Fin.ext (by
    match a with
    | ⟨0, _⟩ => exact (dot_S512x100_S100x1024_S512x1024_1_0_0_1_n_n.rhsIdx_val_of_single rfl _ _).trans hk
    | ⟨1, _⟩ => exact rhsL1 _ _)
  rw [el, er]
  exact congrArg (x1 (ix2 b k) * ·) (transpose_ix2_apply _ _ k j)

/-- distance payload at an index -/
theorem dist_apply (x0 : Vec Ideal S512x64 .f32) (x2 : Vec Ideal S1024x64 .f32) (b : Fin 512) (j : Fin 1024) :
    k0_pay4 (F := Ideal) x0 x2 (ix2 b j) = dist (fun k => x0 (ix2 b k)) (fun k => x2 (ix2 j k)) := by
  unfold k0_pay4
  simp only [shapeCast_self]
  show max (broadcastTo S512x1024 _ _ (ix2 b j) - Ideal.ofBits .f32 0x40000000#32 * matmul (F := Ideal) _ none _ _ _ (ix2 b j) + broadcastTo S512x1024 _ _ (ix2 b j)) (Ideal.ofBits .f32 0x00000000#32) = _
  rw [queryNorm_apply, baseNorm_apply, codeDot_apply, Ideal.ofBits_zero_f32]
  rfl

theorem mism_apply (x1 : Vec Ideal S512x100 .f32) (x3 : Vec Ideal S1024x100 .f32) (b : Fin 512) (j : Fin 1024) :
    k0_pay5 (F := Ideal) x1 x3 (ix2 b j) = mismatch (∑ k : Fin 100, x1 (ix2 b k) * x3 (ix2 j k)) := by
  unfold k0_pay5
  simp only [shapeCast_self]
  show FloatOps.sitofp (F := Ideal) .f32 ((Ideal.cmp .oeq (matmul (F := Ideal) _ none _ _ _ (ix2 b j)) (Ideal.ofBits .f32 0x00000000#32)).setWidth 32) = _
  rw [labelDot_apply, Ideal.ofBits_zero_f32]
  exact sitofp_setWidth _

/-- The global position of tile row j, as the 32-bit word the body computes from the grid position (a0, a1). -/
def colWord (a0 a1 : BitVec 32) (j : Fin 1024) : BitVec 32 :=
  IntOp.addi (Scalar.muli (Scalar.addi (Scalar.muli a0 49#32) a1) 1024#32) (BitVec.ofNat 32 j.val)

/-- The mask of tile row j: 1 when its global position is below 100000, else 0. -/
def maskAt (a0 a1 : BitVec 32) (j : Fin 1024) : EReal := bitVal (IntOp.cmpi .slt (colWord a0 a1 j) 100000#32)

/-- Two nested sums: the lane reduction of a [512, 1024] matrix, kept as a column, then the reduction of the column,
    recast to the one-element block, is the sum over all rows and columns. -/
theorem rows_total (w : FVec Ideal S512x1024 .f32) (i : S1x1x1.Idx) :
    shapeCast S1x1x1 (shapeCast S1x1 (multiReduction (F := Ideal) .add [0] S1
        (shapeCast S512x1 (multiReduction (F := Ideal) .add [1] S512 w 0x00000000#32 reduces_S512x1024_S512 (.inl rfl) rfl) shapeCasts_S512_S512x1)
        0x00000000#32 reduces_S512x1_S1 (.inl rfl) rfl) shapeCasts_S1_S1x1) shapeCasts_S1x1_S1x1x1 i
      = ∑ b : Fin 512, ∑ j : Fin 1024, w (ix2 b j) := by
  have h0 : (i 0).val < 1 := (i 0).isLt
  have h1 : (i 1).val < 1 := (i 1).isLt
  have h2 : (i 2).val < 1 := (i 2).isLt
  refine (shapeCast_apply _ _ i (ix2 (0 : Fin 1) (0 : Fin 1)) (by
    rw [Shape.rowMajor_val_two, Shape.rowMajor_val_three]
    show 0 * 1 + 0 = ((i 0).val * 1 + (i 1).val) * 1 + (i 2).val
    omega)).trans ?_
  refine (shapeCast_apply _ _ (ix2 (0 : Fin 1) (0 : Fin 1)) (ix1 (0 : Fin 1)) (by
    rw [Shape.rowMajor_val_two, Shape.rowMajor_val_one]; rfl)).trans ?_
  refine (Ideal.multiReduction_add_single _ 0x00000000#32 reduces_S512x1_S1 (.inl rfl) rfl (ix1 (0 : Fin 1))).trans ?_
  refine Finset.sum_congr rfl fun b _ => ?_
  have e : reduces_S512x1_S1.lift (ix1 (0 : Fin 1)) b = ix2 b (0 : Fin 1) :=
    funext fun a => Fin.ext (by match a with | ⟨0, _⟩ => rfl | ⟨1, _⟩ => rfl)
  rw [e]
  refine (Cert.LibKeepdims.shapeCast_a_a1_apply _ _ b 0).trans ?_
  refine (Ideal.multiReduction_add_single w 0x00000000#32 reduces_S512x1024_S512 (.inl rfl) rfl (ix1 b)).trans ?_
  refine Finset.sum_congr rfl fun j _ => ?_
  have e' : reduces_S512x1024_S512.lift (ix1 b) j = ix2 b j :=
    funext fun a => Fin.ext (by match a with | ⟨0, _⟩ => rfl | ⟨1, _⟩ => rfl)
  exact congrArg w e'

/-- The accumulating payload, from its five inputs: the accumulator plus the sum over query rows b and tile rows j of
    the masked combination of the distance matrix v30, the mismatch matrix v34, its complement v36 and the halves v37. -/
theorem acc_apply (a0 a1 : BitVec 32) (v30 v34 v36 v37 : FVec Ideal S512x1024 .f32) (v64 : Vec Ideal S1x1x1 .f32)
    (i : S1x1x1.Idx) :
    k0_pay1 (F := Ideal) a0 a1 v30 v34 v36 v37 v64 i
      = v64 i + ∑ b : Fin 512, ∑ j : Fin 1024,
          (v36 (ix2 b j) * v37 (ix2 b j) * v30 (ix2 b j)
            + v34 (ix2 b j) * Ideal.ofBits .f32 0x3F000000#32 * max (Ideal.ofBits .f32 0x43000000#32 - v30 (ix2 b j)) 0)
          * maskAt a0 a1 j := by
  unfold k0_pay1
  simp only [shapeCast_self]
  show v64 i + shapeCast S1x1x1 _ shapeCasts_S1x1_S1x1x1 i = _
  refine congrArg (v64 i + ·) ((rows_total _ i).trans ?_)
  refine Finset.sum_congr rfl fun b _ => Finset.sum_congr rfl fun j _ => ?_
  show (v36 (ix2 b j) * v37 (ix2 b j) * v30 (ix2 b j)
      + v34 (ix2 b j) * Ideal.ofBits .f32 0x3F000000#32 * max (Ideal.ofBits .f32 0x43000000#32 - v30 (ix2 b j)) (Ideal.ofBits .f32 0x00000000#32))
      * broadcastTo S512x1024 _ broadcasts_S1x1024_S512x1024 (ix2 b j) = _
  rw [Ideal.ofBits_zero_f32]
  refine congrArg (_ * ·) ((broadcastTo_1b_ab_apply _ _ b j).trans ?_)
  show FloatOps.sitofp (F := Ideal) .f32 ((IntOp.cmpi .slt (IntOp.addi _ (iota .tc S1x1024 32 [1] iota_S1x1024_d1_w32 (ix2 (0 : Fin 1) j))) 100000#32).setWidth 32) = _
  rw [iota_single_apply]
  exact sitofp_setWidth _

/-- The total one grid point adds: the masked pair losses of all query rows against the tile's rows. -/
def tileTotal (a0 a1 : BitVec 32) (x0 : Vec Ideal S512x64 .f32) (x1 : Vec Ideal S512x100 .f32)
    (x2 : Vec Ideal S1024x64 .f32) (x3 : Vec Ideal S1024x100 .f32) : EReal :=
  ∑ b : Fin 512, ∑ j : Fin 1024,
    pairLoss (fun k => x0 (ix2 b k)) (fun k => x2 (ix2 j k)) (fun k => x1 (ix2 b k)) (fun k => x3 (ix2 j k)) * maskAt a0 a1 j

/-- One grid point's step: the accumulator plus the tile's total. -/
theorem step_apply (a0 a1 : BitVec 32) (x0 : Vec Ideal S512x64 .f32) (x1 : Vec Ideal S512x100 .f32)
    (x2 : Vec Ideal S1024x64 .f32) (x3 : Vec Ideal S1024x100 .f32) (acc : Vec Ideal S1x1x1 .f32) (i : S1x1x1.Idx) :
    k0_pay1 (F := Ideal) a0 a1 (k0_pay4 x0 x2) (k0_pay5 x1 x3) (k0_pay6 x1 x3) (k0_pay7 (F := Ideal)) acc i
      = acc i + tileTotal a0 a1 x0 x1 x2 x3 := by
  rw [acc_apply]
  refine congrArg (acc i + ·) (Finset.sum_congr rfl fun b _ => Finset.sum_congr rfl fun j _ => ?_)
  have e6 : k0_pay6 (F := Ideal) x1 x3 (ix2 b j) = Ideal.ofBits .f32 0x3F800000#32 - k0_pay5 (F := Ideal) x1 x3 (ix2 b j) := rfl
  have e7 : k0_pay7 (F := Ideal) (ix2 b j) = Ideal.ofBits .f32 0x3F000000#32 := rfl
  rw [e6, e7, dist_apply, mism_apply]
  rfl

end Cert.KernelIdeal.TileValue

end
-- ==== Proof.AccChain.lean ====
/-
  The running total the kernel carries across its grid, in closed form.

  The grid has 98 points, two runs of 49.  At the first point of a run the body zeroes its one-element accumulator and
  adds the point's tile total; at every later point it adds the point's tile total to what the point before left; at the
  last point of a run it also stores the accumulator divided by the number of pairs into the run's output block.  So
  after point t the accumulator holds zero plus the tile totals of the points of t's run up to t, and the block written
  back at the end of run q holds (zero plus the 49 tile totals of run q) / 51200000.
-/
import proofs.«162910_j55654186221915_1_alg».proof.Proof.Gen.KernelIdeal.Frame
import proofs.«162910_j55654186221915_1_alg».proof.Proof.TileLoss
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.AccValue

open Cert.KernelIdeal Cert.KernelIdeal.Gen Idealize.ShloMosaic.ValueIdx

section AnyValues
variable {F : FTy → Type} [FloatOps F]

theorem hz : (![0, 0, 0] : Fin 3 → Nat) = fun _ => 0 := funext fun a => by fin_cases a <;> rfl
theorem hz2 : (![0, 0] : Fin 2 → Nat) = fun _ => 0 := funext fun a => by fin_cases a <;> rfl

/-- What one grid point adds to the running total, from the grid position and the four blocks it reads. -/
abbrev step (i : grid0.Coords) (x0 : Vec F S512x64 .f32) (x1 : Vec F S512x100 .f32) (x2 : Vec F S1024x64 .f32) (x3 : Vec F S1024x100 .f32) (acc : Vec F S1x1x1 .f32) : Vec F S1x1x1 .f32 :=
  k0_pay1 (BitVec.ofNat 32 (i 0).val) (BitVec.ofNat 32 (i 1).val) (k0_pay4 x0 x2) (k0_pay5 x1 x3) (k0_pay6 x1 x3) (k0_pay7 (F := F)) acc

theorem sout_B (c : Dev nD) (i : grid0.Coords) (arg2 : Memref sig .tc .vmem S512x64 .f32) (harg2 : arg2.IsWhole) (arg3 : Memref sig .tc .vmem S512x100 .f32) (harg3 : arg3.IsWhole) (arg4 : Memref sig .tc .vmem S1024x64 .f32) (harg4 : arg4.IsWhole) (arg5 : Memref sig .tc .vmem S1024x100 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : ¬cond0_1 i)
    (x0 : Vec F S512x64 .f32) (x1 : Vec F S512x100 .f32) (x2 : Vec F S1024x64 .f32) (x3 : Vec F S1024x100 .f32) (xs0 : Vec F S1x1x1 .f32) :
    sout0_B_0 c i arg2 harg2 arg3 harg3 arg4 harg4 arg5 harg5 arg6 harg6 arg7 harg7 hc0 hc1 x0 x1 x2 x3 xs0 = step i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x64) hz2, View.ld_unit_zero (S := S1024x64) hz2, View.ld_unit_zero (S := S512x100) hz2,
    View.ld_unit_zero (S := S1024x100) hz2, View.ld_unit_zero (S := S1x1x1) hz]

theorem sout_A (c : Dev nD) (i : grid0.Coords) (arg2 : Memref sig .tc .vmem S512x64 .f32) (harg2 : arg2.IsWhole) (arg3 : Memref sig .tc .vmem S512x100 .f32) (harg3 : arg3.IsWhole) (arg4 : Memref sig .tc .vmem S1024x64 .f32) (harg4 : arg4.IsWhole) (arg5 : Memref sig .tc .vmem S1024x100 .f32) (harg5 : arg5.IsWhole) (arg6 : Memref sig .tc .vmem S1x1x1 .f32) (harg6 : arg6.IsWhole) (arg7 : Memref sig .tc .vmem S1x1x1 .f32) (harg7 : arg7.IsWhole) (hc0 : cond0_0 i) (hc1 : ¬cond0_1 i)
    (x0 : Vec F S512x64 .f32) (x1 : Vec F S512x100 .f32) (x2 : Vec F S1024x64 .f32) (x3 : Vec F S1024x100 .f32) :
    sout0_A_0 c i arg2 harg2 arg3 harg3 arg4 harg4 arg5 harg5 arg6 harg6 arg7 harg7 hc0 hc1 x0 x1 x2 x3 = step i x0 x1 x2 x3 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread, harg6.read_unread, harg7.read_unread,
    View.ld_unit_zero (S := S512x64) hz2, View.ld_unit_zero (S := S1024x64) hz2, View.ld_unit_zero (S := S512x100) hz2,
    View.ld_unit_zero (S := S1024x100) hz2, View.ld_unit_zero (S := S1x1x1) hz]

theorem sout_C (c : Dev nD) (i : grid0.Coords) (arg2 : Memref sig .tc .vmem S512x64 .f32) (harg2 : arg2.IsWhole) (arg3 : Memref sig .tc .vmem S512x100 .f32) (harg3 : arg3.IsWhole) (arg4 : Memref sig .tc .vmem S1024x64 .f32) (harg4 : arg4.IsWhole) (arg5 : Memref sig .tc .vmem S1024x100 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i)
    (x0 : Vec F S512x64 .f32) (x1 : Vec F S512x100 .f32) (x2 : Vec F S1024x64 .f32) (x3 : Vec F S1024x100 .f32) (xs0 : Vec F S1x1x1 .f32) :
    sout0_C_0 c i arg2 harg2 arg3 harg3 arg4 harg4 arg5 harg5 arg6 harg6 arg7 harg7 hc0 hc1 x0 x1 x2 x3 xs0 = step i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x64) hz2, View.ld_unit_zero (S := S1024x64) hz2, View.ld_unit_zero (S := S512x100) hz2,
    View.ld_unit_zero (S := S1024x100) hz2, View.ld_unit_zero (S := S1x1x1) hz]

theorem out_C (c : Dev nD) (i : grid0.Coords) (arg2 : Memref sig .tc .vmem S512x64 .f32) (harg2 : arg2.IsWhole) (arg3 : Memref sig .tc .vmem S512x100 .f32) (harg3 : arg3.IsWhole) (arg4 : Memref sig .tc .vmem S1024x64 .f32) (harg4 : arg4.IsWhole) (arg5 : Memref sig .tc .vmem S1024x100 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i)
    (x0 : Vec F S512x64 .f32) (x1 : Vec F S512x100 .f32) (x2 : Vec F S1024x64 .f32) (x3 : Vec F S1024x100 .f32) (xs0 : Vec F S1x1x1 .f32) :
    out0_C_4 c i arg2 harg2 arg3 harg3 arg4 harg4 arg5 harg5 arg6 harg6 arg7 harg7 hc0 hc1 x0 x1 x2 x3 xs0 = k0_pay2 (step i x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1x1x1) _ hz]
  simp only [View.readAt_eq_ld, harg2.read_unread, harg3.read_unread, harg4.read_unread, harg5.read_unread, harg6.read_unread, harg7.read_unread,
    View.ld_unit_zero (S := S512x64) hz2, View.ld_unit_zero (S := S1024x64) hz2, View.ld_unit_zero (S := S512x100) hz2,
    View.ld_unit_zero (S := S1024x100) hz2, View.ld_unit_zero (S := S1x1x1) hz]

end AnyValues

/-! ## At the extended reals -/

variable (m : (ℓ : Loc nD τ sig) → Buf (Elt Ideal) ℓ)

/-- The tile total of grid point n (zero past the grid, where it is never used). -/
def addend (c : Dev nD) (n : ℕ) : S1x1x1.Idx → EReal := fun _ =>
  if h : n < cfg0.N then
    TileValue.tileTotal (BitVec.ofNat 32 (grid0.coords ⟨n, h⟩ 0).val) (BitVec.ofNat 32 (grid0.coords ⟨n, h⟩ 1).val)
      (iblk m c 0 ⟨n, h⟩ : Vec Ideal S512x64 .f32) (iblk m c 1 ⟨n, h⟩ : Vec Ideal S512x100 .f32)
      (iblk m c 2 ⟨n, h⟩ : Vec Ideal S1024x64 .f32) (iblk m c 3 ⟨n, h⟩ : Vec Ideal S1024x100 .f32)
  else 0

/-- A step at point n adds that point's tile total. -/
theorem step_addend (c : Dev nD) (n : ℕ) (h : n < cfg0.N) (acc : Vec Ideal S1x1x1 .f32) (i : S1x1x1.Idx) :
    step (F := Ideal) (grid0.coords ⟨n, h⟩) (iblk m c 0 ⟨n, h⟩) (iblk m c 1 ⟨n, h⟩) (iblk m c 2 ⟨n, h⟩) (iblk m c 3 ⟨n, h⟩) acc i
      = acc i + addend m c n i := by
  unfold addend
  rw [dif_pos h]
  exact TileValue.step_apply _ _ _ _ _ _ acc i

/-- At the first point of a run the accumulator is reset and stepped once. -/
theorem scratch_first (c : Dev nD) (t : Fin cfg0.N) (h0 : t.val % 49 = 0) :
    (outsAt0 m c t.val t.isLt).2
      = step (F := Ideal) (grid0.coords t) (iblk m c 0 t) (iblk m c 1 t) (iblk m c 2 t) (iblk m c 3 t) (k0_pay3 (F := Ideal)) := by
  have h1 : ¬t.val % 49 = 48 := by omega
  rw [outsAt0_A m c t h0 h1]
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other point it is stepped from what the point before left. -/
theorem scratch_next (c : Dev nD) (t : Fin cfg0.N) (h0 : ¬t.val % 49 = 0) :
    (outsAt0 m c t.val t.isLt).2
      = step (F := Ideal) (grid0.coords t) (iblk m c 0 t) (iblk m c 1 t) (iblk m c 2 t) (iblk m c 3 t)
          (outsAt0 m c (t.val - 1) (Nat.lt_of_le_of_lt (Nat.sub_le _ _) t.isLt)).2 := by
  by_cases h1 : t.val % 49 = 48
  · rw [outsAt0_C m c t h0 h1]
    exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _
  · rw [outsAt0_B m c t h0 h1]
    exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _

/-- The accumulator after point t: the reset value plus the tile totals of t's run up to t. -/
theorem scratch_eq (c : Dev nD) (t : ℕ) (ht : t < cfg0.N) (i : S1x1x1.Idx) :
    (outsAt0 m c t ht).2 i
      = k0_pay3 (F := Ideal) i + ∑ s ∈ Finset.range (t % 49 + 1), addend m c (49 * (t / 49) + s) i := by
  have hN : cfg0.N = 98 := N_0
  have h' : 49 * (t / 49) + t % 49 < cfg0.N := by rw [Nat.div_add_mod]; exact ht
  have key := Pipeline.eq_accAt_of_mod (N := cfg0.N) (fun n h => (outsAt0 m c n h).2) 49
    (fun n h => step (F := Ideal) (grid0.coords ⟨n, h⟩) (iblk m c 0 ⟨n, h⟩) (iblk m c 1 ⟨n, h⟩) (iblk m c 2 ⟨n, h⟩) (iblk m c 3 ⟨n, h⟩) (k0_pay3 (F := Ideal)))
    (fun n h acc => step (F := Ideal) (grid0.coords ⟨n, h⟩) (iblk m c 0 ⟨n, h⟩) (iblk m c 1 ⟨n, h⟩) (iblk m c 2 ⟨n, h⟩) (iblk m c 3 ⟨n, h⟩) acc)
    (fun n h h0 => scratch_first m c ⟨n, h⟩ h0)
    (fun n h hne => scratch_next m c ⟨n + 1, h⟩ hne)
    (by norm_num) t ht h'
  rw [key]
  exact Pipeline.accAt_add_apply _ _ (k0_pay3 (F := Ideal)) (addend m c) (49 * (t / 49)) (t % 49)
    (fun h i => step_addend m c _ h _ i) (fun n h acc i _ _ => step_addend m c n h acc i) (t % 49) le_rfl h' i

/-- At the last point of a run the output block is the accumulator divided by the number of pairs. -/
theorem out_eq (c : Dev nD) (t : Fin cfg0.N) (h1 : t.val % 49 = 48) (i : S1x1x1.Idx) :
    (outsAt0 m c t.val t.isLt).1 i
      = Ideal.div ((outsAt0 m c t.val t.isLt).2 i) (Ideal.ofBits .f32 0x4C435000#32) := by
  have h0 : ¬t.val % 49 = 0 := by omega
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _,
    sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _]
  rfl

end Cert.KernelIdeal.AccValue

end
-- ==== Proof.HostEnds.lean ====
/-
  The host operations around the kernel's grid.

  BEFORE the grid the query rows are scattered into the database (codes and labels alike, the same two scatters the
  reference makes) and each scattered array is padded below with 352 zero rows to 100352 = 98 * 1024 rows.  The grid
  then reads, at point t, the whole query code and label matrices and rows 1024 t .. 1024 t + 1023 of the two padded
  arrays.  So a tile row at global position n below 100000 is row n of the scattered database, and one at 100000 or
  beyond is a zero row, which the body's mask discards.

  AFTER the grid the two one-element output blocks are added and the regularizer of the query codes is added to that.
-/
import proofs.«162910_j55654186221915_1_alg».proof.Proof.Gen.KernelIdeal.Frame
import proofs.«162910_j55654186221915_1_alg».proof.Proof.Gen.ReferenceIdeal.Read
import proofs.«162910_j55654186221915_1_alg».proof.Proof.TileLoss
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem
open Idealize.ShloMosaic.Pipeline (Dat)

namespace Cert.KernelIdeal.HostValue

open Cert.KernelIdeal Cert.KernelIdeal.Gen Idealize.ShloMosaic.ValueIdx Cert.PairLoss Cert.KernelIdeal.TileValue

variable (m : (ℓ : Loc nD τ sig) → Buf (Elt Ideal) ℓ)

/-- The database codes with the query rows scattered in (the reference's own term of the same arguments). -/
abbrev scatU (c : Dev nD) : S100000x64.Idx → EReal :=
  Cert.ReferenceIdeal.Read.val_main_v6 (F := Ideal) (m ((c : Thread nD τ).loc main_arg0)) (m ((c : Thread nD τ).loc main_arg2)) (m ((c : Thread nD τ).loc main_arg3))
/-- The database labels with the query rows scattered in. -/
abbrev scatY (c : Dev nD) : S100000x100.Idx → EReal :=
  Cert.ReferenceIdeal.Read.val_main_v13 (F := Ideal) (m ((c : Thread nD τ).loc main_arg1)) (m ((c : Thread nD τ).loc main_arg2)) (m ((c : Thread nD τ).loc main_arg4))

set_option maxHeartbeats 4000000 in
/-- The padded code array as the grid finds it: the scattered codes over 352 rows of the padding value. -/
theorem V_v14 (c : Dev nD) : (V m c main_v14 : S100352x64.Idx → EReal)
    = pad S100352x64 ![0, 0] ![352, 0] ![0, 0] (scatU m c)
        (sitofp (F := Ideal) .f32 (constantI S_ 32 0#32)) pads_S100000x64_S100352x64_03520_000 h_S_ := by
  dsimp only [V, V0]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  rfl

set_option maxHeartbeats 4000000 in
/-- The padded label array likewise. -/
theorem V_v15 (c : Dev nD) : (V m c main_v15 : S100352x100.Idx → EReal)
    = pad S100352x100 ![0, 0] ![352, 0] ![0, 0] (scatY m c)
        (sitofp (F := Ideal) .f32 (constantI S_ 32 0#32)) pads_S100000x100_S100352x100_03520_000 h_S_ := by
  dsimp only [V, V0]
  simp only [hostOps0, hostOps0_1, hostOps0_2, hostOps0_3, List.flatten_cons, List.flatten_nil, List.append_nil, List.cons_append, List.nil_append]
  after_results
  simp only [StableHlo.TRef.toBuf, StableHlo.TRef.ofBuf, cast_eq]
  rfl

/-- The padding value is zero. -/
theorem padval : (sitofp (F := Ideal) .f32 (constantI S_ 32 0#32)) (Shape.Idx.first h_S_) = 0 := by
  show (((0#32 : BitVec 32).toInt : ℝ) : EReal) = 0
  simp

/-- Row n of the padded codes: the scattered row below 100000, zero from there on. -/
theorem padU_apply (c : Dev nD) (n : ℕ) (h : n < 100352) (k : Fin 64) :
    (V m c main_v14 : S100352x64.Idx → EReal) (ix2 ⟨n, h⟩ k)
      = if hn : n < 100000 then scatU m c (ix2 ⟨n, hn⟩ k) else 0 := by
  rw [V_v14]
  split
  · rename_i hn
    exact pad_apply_of_inside _ _ _ _ _ _ _ (ix2 ⟨n, h⟩ k) (ix2 ⟨n, hn⟩ k) (fun a => by
      match a with
      | ⟨0, _⟩ => show n = 0 + n * (0 + 1); omega
      | ⟨1, _⟩ => show k.val = 0 + k.val * (0 + 1); omega)
  · rename_i hn
    refine (pad_apply_of_not_inside _ _ _ _ _ _ _ (ix2 ⟨n, h⟩ k) (0 : Fin 2) (by
      show ¬(0 ≤ n ∧ (n - 0) % (0 + 1) = 0 ∧ (n - 0) / (0 + 1) < 100000)
      omega)).trans (padval)

/-- Row n of the padded labels. -/
theorem padY_apply (c : Dev nD) (n : ℕ) (h : n < 100352) (k : Fin 100) :
    (V m c main_v15 : S100352x100.Idx → EReal) (ix2 ⟨n, h⟩ k)
      = if hn : n < 100000 then scatY m c (ix2 ⟨n, hn⟩ k) else 0 := by
  rw [V_v15]
  split
  · rename_i hn
    exact pad_apply_of_inside _ _ _ _ _ _ _ (ix2 ⟨n, h⟩ k) (ix2 ⟨n, hn⟩ k) (fun a => by
      match a with
      | ⟨0, _⟩ => show n = 0 + n * (0 + 1); omega
      | ⟨1, _⟩ => show k.val = 0 + k.val * (0 + 1); omega)
  · rename_i hn
    refine (pad_apply_of_not_inside _ _ _ _ _ _ _ (ix2 ⟨n, h⟩ k) (0 : Fin 2) (by
      show ¬(0 ≤ n ∧ (n - 0) % (0 + 1) = 0 ∧ (n - 0) / (0 + 1) < 100000)
      omega)).trans (padval)

/-- Where each window's block sits at grid point t, and the point's coordinates: decided over the 98 points. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 49 ∧ win0_4.index t (1 : Fin 3) = 0 ∧ win0_4.index t (2 : Fin 3) = 0
    ∧ (grid0.coords t 0).val = t.val / 49 ∧ (grid0.coords t 1).val = t.val % 49 :=
  (by decide +kernel : ∀ t : Fin grid0.N, _)

/-- The query code block is the query code matrix, at every point. -/
theorem blk0_apply (c : Dev nD) (t : Fin cfg0.N) (b : Fin 512) (k : Fin 64) :
    (iblk m c 0 t : Vec Ideal S512x64 .f32) (ix2 b k) = m ((c : Thread nD τ).loc main_arg0) (ix2 b k) := by
  obtain ⟨e0, e1, -⟩ := idx_facts t
  unfold iblk
  rw [View.read_apply]
  show V m c main_arg0 _ = _
  rw [V_main_arg0 m c]
  congr 1
  funext a
  apply Fin.ext
  match a with
  | ⟨0, _⟩ => show win0_0.index t (0 : Fin 2) * 512 + 1 * b.val = b.val; rw [e0]; omega
  | ⟨1, _⟩ => show win0_0.index t (1 : Fin 2) * 64 + 1 * k.val = k.val; rw [e1]; omega

/-- The query label block is the query label matrix. -/
theorem blk1_apply (c : Dev nD) (t : Fin cfg0.N) (b : Fin 512) (k : Fin 100) :
    (iblk m c 1 t : Vec Ideal S512x100 .f32) (ix2 b k) = m ((c : Thread nD τ).loc main_arg1) (ix2 b k) := by
  obtain ⟨-, -, e0, e1, -⟩ := idx_facts t
  unfold iblk
  rw [View.read_apply]
  show V m c main_arg1 _ = _
  rw [V_main_arg1 m c]
  congr 1
  funext a
  apply Fin.ext
  match a with
  | ⟨0, _⟩ => show win0_1.index t (0 : Fin 2) * 512 + 1 * b.val = b.val; rw [e0]; omega
  | ⟨1, _⟩ => show win0_1.index t (1 : Fin 2) * 100 + 1 * k.val = k.val; rw [e1]; omega

/-- Row j of the code tile at point t is row 1024 t + j of the padded codes. -/
theorem blk2_apply (c : Dev nD) (t : Fin cfg0.N) (j : Fin 1024) (k : Fin 64) (h : 1024 * t.val + j.val < 100352) :
    (iblk m c 2 t : Vec Ideal S1024x64 .f32) (ix2 j k) = (V m c main_v14 : S100352x64.Idx → EReal) (ix2 ⟨1024 * t.val + j.val, h⟩ k) := by
  obtain ⟨-, -, -, -, e0, e1, -⟩ := idx_facts t
  unfold iblk
  rw [View.read_apply]
  show V m c main_v14 _ = V m c main_v14 _
  congr 1
  funext a
  apply Fin.ext
  match a with
  | ⟨0, _⟩ => show win0_2.index t (0 : Fin 2) * 1024 + 1 * j.val = 1024 * t.val + j.val; rw [e0]; omega
  | ⟨1, _⟩ => show win0_2.index t (1 : Fin 2) * 64 + 1 * k.val = k.val; rw [e1]; omega

/-- Row j of the label tile at point t is row 1024 t + j of the padded labels. -/
theorem blk3_apply (c : Dev nD) (t : Fin cfg0.N) (j : Fin 1024) (k : Fin 100) (h : 1024 * t.val + j.val < 100352) :
    (iblk m c 3 t : Vec Ideal S1024x100 .f32) (ix2 j k) = (V m c main_v15 : S100352x100.Idx → EReal) (ix2 ⟨1024 * t.val + j.val, h⟩ k) := by
  obtain ⟨-, -, -, -, -, -, e0, e1, -⟩ := idx_facts t
  unfold iblk
  rw [View.read_apply]
  show V m c main_v15 _ = V m c main_v15 _
  congr 1
  funext a
  apply Fin.ext
  match a with
  | ⟨0, _⟩ => show win0_3.index t (0 : Fin 2) * 1024 + 1 * j.val = 1024 * t.val + j.val; rw [e0]; omega
  | ⟨1, _⟩ => show win0_3.index t (1 : Fin 2) * 100 + 1 * k.val = k.val; rw [e1]; omega

/-! ## The mask, from the point's position -/

theorem slt_small (n : ℕ) (hn : n < 2147483648) : (BitVec.ofNat 32 n).slt 100000#32 = decide (n < 100000) := by
  have h1 : (BitVec.ofNat 32 n).toInt = (n : ℤ) := by
    rw [BitVec.toInt_eq_toNat_cond, BitVec.toNat_ofNat]
    have : n % 2 ^ 32 = n := Nat.mod_eq_of_lt (by omega)
    rw [this]
    split
    · rfl
    · omega
  have h2 : (100000#32 : BitVec 32).toInt = 100000 := by decide
  unfold BitVec.slt
  rw [h1, h2]
  simp

/-- The position word of tile row j at run q, offset r is 1024 (49 q + r) + j: nothing wraps. -/
theorem colWord_eq (q r : ℕ) (j : Fin 1024) (hq : q < 2) (hr : r < 49) :
    colWord (BitVec.ofNat 32 q) (BitVec.ofNat 32 r) j = BitVec.ofNat 32 (1024 * (49 * q + r) + j.val) := by
  apply BitVec.eq_of_toNat_eq
  have hj := j.isLt
  simp only [colWord, IntOp.addi, Scalar.muli, Scalar.addi, IntOp.muli, BitVec.toNat_add, BitVec.toNat_mul, BitVec.toNat_ofNat]
  omega

/-- So the mask of tile row j at grid point t is 1 below global position 100000 and 0 from there on. -/
theorem mask_eq (t : Fin cfg0.N) (j : Fin 1024) :
    maskAt (BitVec.ofNat 32 (grid0.coords t 0).val) (BitVec.ofNat 32 (grid0.coords t 1).val) j
      = if 1024 * t.val + j.val < 100000 then 1 else 0 := by
  obtain ⟨-, -, -, -, -, -, -, -, -, -, -, e0, e1⟩ := idx_facts t
  have hN : t.val < 98 := lt_of_lt_of_eq t.isLt (show cfg0.N = 98 from N_0)
  have hj := j.isLt
  rw [e0, e1]
  unfold maskAt
  rw [colWord_eq (t.val / 49) (t.val % 49) j (by omega) (by omega)]
  have hpos : 1024 * (49 * (t.val / 49) + t.val % 49) + j.val = 1024 * t.val + j.val := by
    rw [Nat.div_add_mod]
  rw [hpos]
  show bitVal (BitVec.ofBool ((BitVec.ofNat 32 (1024 * t.val + j.val)).slt 100000#32)) = _
  rw [slt_small _ (by omega)]
  split
  · rename_i h; rw [decide_eq_true h]; exact bitVal_one
  · rename_i h; rw [decide_eq_false h]; exact bitVal_zero

/-! ## After the grid -/

/-- The program's result from the output array OUT the grid leaves: its two entries added, plus the regularizer of the
    query codes (the reference's own term for it). -/
theorem tail_eq (c : Dev nD) (OUT : S2x1x1.Idx → EReal) (hOUT : (dats m 0 c).arrAt 4 cfg0.N = OUT) :
    Pipeline.afterTail₀ cfgs (dats m) 0 (V0 m) [hostOps1] c main_v29
      = fun i => (OUT (ix3 (0 : Fin 2) (0 : Fin 1) (0 : Fin 1)) + OUT (ix3 (1 : Fin 2) (0 : Fin 1) (0 : Fin 1)))
          + Cert.ReferenceIdeal.Read.val_main_v56 (F := Ideal) (m ((c : Thread nD τ).loc main_arg0)) i := by
  unfold Pipeline.afterTail₀
  show StableHlo.after hostOps1 _ (Proc.devRef .tc main_v29) = _
  after_results
  have e4 : Pipeline.withArrays (cfgs 0).spec c (V0 m c) (fun w => (dats m 0 c).arrAt w (cfgs 0).N) (Proc.devRef .tc main_v16)
      = OUT := (Pipeline.withArrays_arr spec0 launch0.win.arr_inj c _ _ 4).trans hOUT
  have e0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  rw [e4, e0]
  funext i
  have hS : (S_.rowMajor i).val = 0 := by
    have h := (S_.rowMajor i).isLt
    have h1 : S_.numel = 1 := rfl
    omega
  show (shapeCast S_ (extractStridedSlice S1x1x1 ![0, 0, 0] OUT slices_S2x1x1_S1x1x1_0_0_0) shapeCasts_S1x1x1_S_ i
      + shapeCast S_ (extractStridedSlice S1x1x1 ![1, 0, 0] OUT slices_S2x1x1_S1x1x1_1_0_0) shapeCasts_S1x1x1_S_ i)
      + Cert.ReferenceIdeal.Read.val_main_v56 (F := Ideal) (m ((c : Thread nD τ).loc main_arg0)) i = _
  rw [shapeCast_apply _ shapeCasts_S1x1x1_S_ i (ix3 (0 : Fin 1) (0 : Fin 1) (0 : Fin 1)) (by rw [Shape.rowMajor_val_three, hS]; rfl),
    shapeCast_apply _ shapeCasts_S1x1x1_S_ i (ix3 (0 : Fin 1) (0 : Fin 1) (0 : Fin 1)) (by rw [Shape.rowMajor_val_three, hS]; rfl),
    extractStridedSlice_apply ![0, 0, 0] OUT slices_S2x1x1_S1x1x1_0_0_0 _ (ix3 (0 : Fin 2) (0 : Fin 1) (0 : Fin 1))
      (fun a => by match a with | ⟨0, _⟩ => rfl | ⟨1, _⟩ => rfl | ⟨2, _⟩ => rfl),
    extractStridedSlice_apply ![1, 0, 0] OUT slices_S2x1x1_S1x1x1_1_0_0 _ (ix3 (1 : Fin 2) (0 : Fin 1) (0 : Fin 1))
      (fun a => by match a with | ⟨0, _⟩ => rfl | ⟨1, _⟩ => rfl | ⟨2, _⟩ => rfl)]

end Cert.KernelIdeal.HostValue

end
-- ==== Proof.KernelValue.lean ====
/-
  The kernel program's result as the same closed expression as the reference's.

  The grid leaves an output array of two entries; entry q is (zero plus the 49 tile totals of run q) / 51200000.  The
  host adds the two entries and then the regularizer.  Dividing by the number of pairs distributes over the sum of the
  two runs, the 98 tile totals regroup (by tiles of 1024 padded database rows, the 352 padding rows masked to zero)
  into the total of the pair losses over the 512 query rows and the 100000 rows of the scattered database, and that
  is the reference's mean loss; the regularizer is the same term in both programs.
-/
import proofs.«162910_j55654186221915_1_alg».proof.Proof.AccChain
import proofs.«162910_j55654186221915_1_alg».proof.Proof.HostEnds
import proofs.«162910_j55654186221915_1_alg».proof.Proof.RefSide

noncomputable section

open scoped BigOperators
open Idealize.ShloMosaic Idealize.ShloMosaic.TcCoe Idealize.SL.Sem
open Idealize.ShloMosaic.Pipeline (Dat)

namespace Cert.KernelIdeal.OutValue

open Cert.KernelIdeal Cert.KernelIdeal.Gen Idealize.ShloMosaic.ValueIdx Cert.PairLoss Cert.KernelIdeal.TileValue
  Cert.KernelIdeal.AccValue Cert.KernelIdeal.HostValue

variable (m : (ℓ : Loc nD τ sig) → Buf (Elt Ideal) ℓ) (ρ : Dev nD → PrngReg)

/-- The accumulator at the end of run q: the reset value plus the run's 49 tile totals. -/
def runTotal (c : Dev nD) (q : ℕ) : EReal :=
  k0_pay3 (F := Ideal) (ix3 (0 : Fin 1) (0 : Fin 1) (0 : Fin 1))
    + ∑ s ∈ Finset.range 49, addend m c (49 * q + s) (ix3 (0 : Fin 1) (0 : Fin 1) (0 : Fin 1))

/-- The output array after the grid: entry q is run q's accumulator divided by the number of pairs. -/
def outArr (c : Dev nD) : Buf (Elt Ideal) ((c : Thread nD τ).loc main_v16) :=
  fun (i : S2x1x1.Idx) => Ideal.div (runTotal m c (i 0).val) (Ideal.ofBits .f32 0x4C435000#32)

/-- What the last point of a run writes back is that run's entry. -/
theorem flushed_eq (c : Dev nD) (t : Fin cfg0.N) (hf : (cfg0.win 4).flush t = true) :
    (dats m 0 c).flushed 4 t = ((cfg0.win 4).blk t).view.read (Elt Ideal) (outArr m c) := by
  have h48 : t.val % 49 = 48 := (flush0_4 t).mp hf
  obtain ⟨-, -, -, -, -, -, -, -, e0, -⟩ := idx_facts t
  show (cfg0.win 4).cut (grid0.coords t) ((dats m 0 c).after 4 t) = _
  rw [after0_4]
  funext y
  show (outsAt0 m c t.val t.isLt).1 y = outArr m c (((cfg0.win 4).blk t).view.emb y)
  rw [out_eq m c t h48 y, scratch_eq m c t.val t.isLt y, h48]
  have hq : ((((cfg0.win 4).blk t).view.emb y) 0).val = t.val / 49 := by
    show win0_4.index t (0 : Fin 3) * 1 + 1 * (y 0).val = _
    have hy : (y 0).val < 1 := (y 0).isLt
    rw [e0]; omega
  unfold outArr runTotal
  show Ideal.div _ _ = Ideal.div (_ + ∑ s ∈ Finset.range 49, addend m c (49 * ((((cfg0.win 4).blk t).view.emb y) 0).val + s) _) _
  rw [hq]
  rfl

/-- An index of the output array is in point t's block iff each coordinate is in the block's range. -/
theorem mem_blk (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v16).slice (win0_4.rect t)).set ↔ _
  rw [View.set_slice_whole, Rect.mem_set_unit]
  exact Iff.rfl

/-- The array after the grid is the two run entries: the last point of run q covers entry q. -/
theorem final (c : Dev nD) : (dats m 0 c).arrAt 4 cfg0.N = outArr m c :=
  (dats m 0 c).arrAt_eq_of_cover 4 (outArr m c) (flushed_eq m c) fun i => by
    have hN : cfg0.N = 98 := N_0
    have hi0 : (i 0).val < 2 := (i 0).isLt
    have hi1 : (i 1).val < 1 := (i 1).isLt
    have hi2 : (i 2).val < 1 := (i 2).isLt
    have ht : 49 * (i 0).val + 48 < cfg0.N := by omega
    refine ⟨⟨49 * (i 0).val + 48, ht⟩, (flush0_4 _).mpr (by show (49 * (i 0).val + 48) % 49 = 48; omega), ?_⟩
    obtain ⟨-, -, -, -, -, -, -, -, e0, e1, e2, -⟩ := idx_facts ⟨49 * (i 0).val + 48, ht⟩
    have e0' : win0_4.index ⟨49 * (i 0).val + 48, ht⟩ (0 : Fin 3) = (i 0).val := by
      rw [e0]; show (49 * (i 0).val + 48) / 49 = (i 0).val; omega
    rw [mem_blk]
    intro a
    match a with
    | ⟨0, _⟩ => show win0_4.index ⟨49 * (i 0).val + 48, ht⟩ (0 : Fin 3) * 1 ≤ (i 0).val ∧ (i 0).val < win0_4.index ⟨49 * (i 0).val + 48, ht⟩ (0 : Fin 3) * 1 + 1; rw [e0']; omega
    | ⟨1, _⟩ => show win0_4.index ⟨49 * (i 0).val + 48, ht⟩ (1 : Fin 3) * 1 ≤ (i 1).val ∧ (i 1).val < win0_4.index ⟨49 * (i 0).val + 48, ht⟩ (1 : Fin 3) * 1 + 1; rw [e1]; omega
    | ⟨2, _⟩ => show win0_4.index ⟨49 * (i 0).val + 48, ht⟩ (2 : Fin 3) * 1 ≤ (i 2).val ∧ (i 2).val < win0_4.index ⟨49 * (i 0).val + 48, ht⟩ (2 : Fin 3) * 1 + 1; rw [e2]; omega

/-! ## The regrouping -/

/-- The masked term of query row b and padded database row n (zero past the padded array, where it is never read). -/
def maskedLoss (c : Dev nD) (b : Fin 512) (n : ℕ) : EReal :=
  if h : n < 100352 then
    pairLoss (fun k => m ((c : Thread nD τ).loc main_arg0) (ix2 b k))
        (fun k => (V m c main_v14 : S100352x64.Idx → EReal) (ix2 ⟨n, h⟩ k))
        (fun k => m ((c : Thread nD τ).loc main_arg1) (ix2 b k))
        (fun k => (V m c main_v15 : S100352x100.Idx → EReal) (ix2 ⟨n, h⟩ k))
      * (if n < 100000 then 1 else 0)
  else 0

/-- The tile total of grid point t is the masked terms of all query rows against the tile's 1024 padded rows. -/
theorem addend_eq (c : Dev nD) (t : ℕ) (ht : t < 98) (i : S1x1x1.Idx) :
    addend m c t i = ∑ b : Fin 512, ∑ j : Fin 1024, maskedLoss m c b (1024 * t + j.val) := by
  have hN : cfg0.N = 98 := N_0
  have ht' : t < cfg0.N := by omega
  unfold addend
  rw [dif_pos ht']
  unfold tileTotal
  refine Finset.sum_congr rfl fun b _ => Finset.sum_congr rfl fun j _ => ?_
  have hj := j.isLt
  have hlt : 1024 * t + j.val < 100352 := by omega
  have r0 : (fun k => (iblk m c 0 ⟨t, ht'⟩ : Vec Ideal S512x64 .f32) (ix2 b k)) = fun k => m ((c : Thread nD τ).loc main_arg0) (ix2 b k) :=
    funext fun k => blk0_apply m c ⟨t, ht'⟩ b k
  have r1 : (fun k => (iblk m c 1 ⟨t, ht'⟩ : Vec Ideal S512x100 .f32) (ix2 b k)) = fun k => m ((c : Thread nD τ).loc main_arg1) (ix2 b k) :=
    funext fun k => blk1_apply m c ⟨t, ht'⟩ b k
  have r2 : (fun k => (iblk m c 2 ⟨t, ht'⟩ : Vec Ideal S1024x64 .f32) (ix2 j k)) = fun k => (V m c main_v14 : S100352x64.Idx → EReal) (ix2 ⟨1024 * t + j.val, hlt⟩ k) :=
    funext fun k => blk2_apply m c ⟨t, ht'⟩ j k hlt
  have r3 : (fun k => (iblk m c 3 ⟨t, ht'⟩ : Vec Ideal S1024x100 .f32) (ix2 j k)) = fun k => (V m c main_v15 : S100352x100.Idx → EReal) (ix2 ⟨1024 * t + j.val, hlt⟩ k) :=
    funext fun k => blk3_apply m c ⟨t, ht'⟩ j k hlt
  rw [r0, r1, r2, r3, mask_eq ⟨t, ht'⟩ j]
  unfold maskedLoss
  rw [dif_pos hlt]

/-- The pair loss of query row b against row n of the scattered database. -/
def rowLoss (c : Dev nD) (b : Fin 512) (n : Fin 100000) : EReal :=
  pairLoss (fun k => m ((c : Thread nD τ).loc main_arg0) (ix2 b k)) (fun k => scatU m c (ix2 n k))
    (fun k => m ((c : Thread nD τ).loc main_arg1) (ix2 b k)) (fun k => scatY m c (ix2 n k))

/-- The 98 tile totals are the total of the pair losses over the scattered database. -/
theorem tiles_eq (c : Dev nD) (i : S1x1x1.Idx) :
    ∑ t ∈ Finset.range 98, addend m c t i = ∑ b : Fin 512, ∑ n : Fin 100000, rowLoss m c b n := by
  rw [← tiles_total (maskedLoss m c) (rowLoss m c)
    (fun b n => by
      have hn := n.isLt
      unfold maskedLoss rowLoss
      rw [dif_pos (by omega : n.val < 100352), if_pos hn, mul_one]
      have ru : (fun k => (V m c main_v14 : S100352x64.Idx → EReal) (ix2 ⟨n.val, by omega⟩ k)) = fun k => scatU m c (ix2 n k) :=
        funext fun k => (padU_apply m c n.val (by omega) k).trans (dif_pos hn)
      have ry : (fun k => (V m c main_v15 : S100352x100.Idx → EReal) (ix2 ⟨n.val, by omega⟩ k)) = fun k => scatY m c (ix2 n k) :=
        funext fun k => (padY_apply m c n.val (by omega) k).trans (dif_pos hn)
      rw [ru, ry])
    (fun b n hn => by
      unfold maskedLoss
      split
      · rw [if_neg (by omega), mul_zero]
      · rfl)]
  exact Finset.sum_congr rfl fun t ht => addend_eq m c t (Finset.mem_range.mp ht) i

/-- The zero the accumulator is reset to. -/
theorem reset_zero (i : S1x1x1.Idx) : k0_pay3 (F := Ideal) i = 0 := by
  unfold k0_pay3
  simp only [shapeCast_self]
  exact Ideal.ofBits_zero_f32

/-- The program's result: the reference's closed expression of the same arguments. -/
def kernelResult (c : Dev nD) : Buf (Elt Ideal) ((c : Thread nD τ).loc main_v29) :=
  Cert.ReferenceIdeal.RefValue.resultOf (m ((c : Thread nD τ).loc main_arg0)) (m ((c : Thread nD τ).loc main_arg1))
    (m ((c : Thread nD τ).loc main_arg2)) (m ((c : Thread nD τ).loc main_arg3)) (m ((c : Thread nD τ).loc main_arg4))

/-- After the host's last operations the result buffer holds it. -/
theorem result_eq (c : Dev nD) :
    Pipeline.afterTail₀ cfgs (dats m) 0 (V0 m) [hostOps1] c main_v29 = kernelResult m c := by
  rw [tail_eq m c (outArr m c) (final m c)]
  funext i
  unfold kernelResult Cert.ReferenceIdeal.RefValue.resultOf
  refine congrArg (· + _) ?_
  show Ideal.div (runTotal m c 0) _ + Ideal.div (runTotal m c 1) _ = _
  rw [div_count_add]
  refine congrArg (Ideal.div · _) ?_
  unfold runTotal
  rw [reset_zero, zero_add, zero_add, two_runs (fun t => addend m c t (ix3 (0 : Fin 1) (0 : Fin 1) (0 : Fin 1))), tiles_eq]
  rfl

/-- The run, read: the result buffer at the closed expression, the arguments unchanged. -/
theorem run : θ_run defs (onTc (τ := τ) (main (F := Ideal))) ⟨m, fun _ => 0, ρ⟩ fun r => ∀ c : Dev nD,
      r.2.mem ((c.tc : Thread nD τ).loc main_v29) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v29 (Pipeline.mem_restRefs_of main_v29 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.OutValue

end
-- ==== Proof.lean ====
/-
  The certificate: the kernel program and its jnp reference compute, on the extended reals, the same number from the
  same arguments.

  Both programs scatter the 512 query rows into the 100000-row database and average, over all (query row, database
  row) pairs, a loss that is half the clipped squared distance of the codes for a pair sharing a class and half the
  hinge max (128 - distance) 0 for a pair sharing none; both add the same regularizer of the query codes.  The
  reference sums all 51200000 pair losses at once and divides.  The kernel pads the database to 98 tiles of 1024 rows,
  masks the padding, accumulates the tile totals in two runs of 49 grid points, divides each run's total by 51200000
  and adds the two quotients on the host.  Sums regroup freely on the extended reals and a division by a positive
  real distributes over a sum, so the two results are the same closed expression (KernelValue.lean, RefSide.lean).

  The three frame claims are the generated frame runs (the reference's from its generated run); the idealization
  rewrote nothing, so the preservation claim is trivial.
-/
import proofs.«162910_j55654186221915_1_alg».proof.Defs
import proofs.«162910_j55654186221915_1_alg».proof.Proof.Gen.Kernel
import proofs.«162910_j55654186221915_1_alg».proof.Proof.Gen.Kernel.Skeleton
import proofs.«162910_j55654186221915_1_alg».proof.Proof.Gen.Kernel.Launch
import proofs.«162910_j55654186221915_1_alg».proof.Proof.Gen.Kernel.Points
import proofs.«162910_j55654186221915_1_alg».proof.Proof.Gen.Kernel.Frame
import proofs.«162910_j55654186221915_1_alg».proof.Proof.Gen.KernelIdeal
import proofs.«162910_j55654186221915_1_alg».proof.Proof.Gen.KernelIdeal.Skeleton
import proofs.«162910_j55654186221915_1_alg».proof.Proof.Gen.KernelIdeal.Launch
import proofs.«162910_j55654186221915_1_alg».proof.Proof.Gen.KernelIdeal.Points
import proofs.«162910_j55654186221915_1_alg».proof.Proof.Gen.KernelIdeal.Frame
import proofs.«162910_j55654186221915_1_alg».proof.Proof.Gen.ReferenceIdeal
import proofs.«162910_j55654186221915_1_alg».proof.Proof.Gen.Pre_finite_inputs
import proofs.«162910_j55654186221915_1_alg».proof.Proof.Gen.ReferenceIdeal.Run
import proofs.«162910_j55654186221915_1_alg».proof.Proof.Gen.ReferenceIdeal.Read
import proofs.«162910_j55654186221915_1_alg».proof.Proof.RefSide
import proofs.«162910_j55654186221915_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end, from memories that agree on the arguments, with the result buffer at the one closed
    expression of those arguments. -/
theorem algebraic : Cert.algebraic_KernelIdeal_ReferenceIdeal := by
  intro m ρ m' ρ' _ hagree
  refine ⟨fun c => Cert.KernelIdeal.OutValue.kernelResult m c, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefValue.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
